-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S3x4096 : Shape := ⟨2, ![3, 4096]⟩
abbrev S_ : Shape := ⟨0, ![]⟩
abbrev S16384 : Shape := ⟨1, ![16384]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S3x4096 : S_.BroadcastsInDim S3x4096 (![] : Fin 0 → Fin S3x4096.rank)
  reducesTo_S3x4096_S_d0_1 : S3x4096.ReducesTo [0, 1] S_
  reducesTo_S16384x4096_S16384_d1 : S16384x4096.ReducesTo [1] S16384
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S16384x4096 .f32) (main_arg1 : FVec F S3x4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S3x4096 .f32 := Host.absf main_arg1
  let main_cst_0 : FVec F S_ .f32 := constant S_ .f32 0x7F800000#32
  let main_v5 : FVec F S3x4096 .f32 := broadcastInDim S3x4096 ![] bcast_S_S3x4096 main_cst_0
  let main_v6 : IVec S3x4096 1 := cmpf .olt main_v4 main_v5
  let main_c_1 : IVec S_ 1 := constantI S_ 1 1#1
  let main_v7 : IVec S_ 1 := (fun x v => Host.reduce IntOp.andi x v reducesTo_S3x4096_S_d0_1 h_S_) main_v6 main_c_1
  let main_v8 : IVec S_ 1 := andi main_v3 main_v7
  let main_v9 : FVec F S16384x4096 .f32 := mulf main_arg0 main_arg0
  let main_cst_2 : FVec F S_ .f32 := constant S_ .f32 0x00000000#32
  let main_v10 : FVec F S16384 .f32 := (fun x v => Host.reduceAdd x v reducesTo_S16384x4096_S16384_d1 h_S_) main_v9 main_cst_2
  let main_cst_3 : FVec F S_ .f32 := constant S_ .f32 0x00000000#32
  let main_v11 : FVec F S16384 .f32 := broadcastInDim S16384 ![] bcast_S_S16384 main_cst_3
  let main_v12 : IVec S16384 1 := cmpf .ogt main_v10 main_v11
  let main_c_4 : IVec S_ 1 := constantI S_ 1 1#1
  let main_v13 : IVec S_ 1 := (fun x v => Host.reduce IntOp.andi x v reducesTo_S16384_S_d0 h_S_) main_v12 main_c_4
  let main_v14 : IVec S_ 1 := andi main_v8 main_v13
  main_v14
-- ==== Kernel.lean ====
abbrev S16384x4096 : Shape := ⟨2, ![16384, 4096]⟩
abbrev S3x4096 : Shape := ⟨2, ![3, 4096]⟩
abbrev S_ : Shape := ⟨0, ![]⟩
abbrev S3 : Shape := ⟨1, ![3]⟩
abbrev S3x1 : Shape := ⟨2, ![3, 1]⟩
abbrev S4096x3 : Shape := ⟨2, ![4096, 3]⟩
abbrev S16384x3 : Shape := ⟨2, ![16384, 3]⟩
abbrev S512x4096 : Shape := ⟨2, ![512, 4096]⟩
abbrev S512x3 : Shape := ⟨2, ![512, 3]⟩
abbrev S512 : Shape := ⟨1, ![512]⟩
abbrev S512x1 : Shape := ⟨2, ![512, 1]⟩

abbrev nBuf : Space → Nat
  | .hbm => 12
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S3x4096, .f32⟩
  | .hbm, ⟨2, _⟩ => ⟨S3x4096, .f32⟩
  | .hbm, ⟨3, _⟩ => ⟨S_, .f32⟩
  | .hbm, ⟨4, _⟩ => ⟨S3, .f32⟩
  | .hbm, ⟨5, _⟩ => ⟨S3x1, .f32⟩
  | .hbm, ⟨6, _⟩ => ⟨S3x1, .f32⟩
  | .hbm, ⟨7, _⟩ => ⟨S3x4096, .f32⟩
  | .hbm, ⟨8, _⟩ => ⟨S3x4096, .f32⟩
  | .hbm, ⟨9, _⟩ => ⟨S4096x3, .f32⟩
  | .hbm, ⟨10, _⟩ => ⟨S4096x3, .bf16⟩
  | .hbm, ⟨11, _⟩ => ⟨S16384x3, .f32⟩
  | .local _ .vmem, ⟨0, _⟩ => ⟨S512x4096, .f32⟩
  | .local _ .vmem, ⟨1, _⟩ => ⟨S512x4096, .f32⟩
  | .local _ .vmem, ⟨2, _⟩ => ⟨S4096x3, .bf16⟩
  | .local _ .vmem, ⟨3, _⟩ => ⟨S512x3, .f32⟩
  | .local _ .vmem, ⟨4, _⟩ => ⟨S512x3, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x3 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  reducesTo_S3x4096_S3_d1 : S3x4096.ReducesTo [1] S3
  h_S_ : 0 < S_.numel
  bcast_S3_S3x1_0 : S3.BroadcastsInDim S3x1 (![0] : Fin 1 → Fin S3x1.rank)
  bcast_S3x1_S3x4096_0_1 : S3x1.BroadcastsInDim S3x4096 (![0, 1] : Fin 2 → Fin S3x4096.rank)
  transposes_S3x4096_S4096x3_1_0 : S3x4096.Transposes [1, 0] S4096x3
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  reduces_S512x4096_S512 : S512x4096.Reduces [1] S512
  shapeCasts_S512_S512x1 : S512.ShapeCasts S512x1
  inb_S4096x3_S4096x3_0_0 : ∀ a, (![0, 0] : Fin 2 → Nat) a + S4096x3.size a ≤ S4096x3.size a
  h_S4096x3 : 0 < S4096x3.numel
  shapeCasts_S4096x3_S4096x3 : S4096x3.ShapeCasts S4096x3
  broadcasts_S512x1_S512x3 : S512x1.Broadcasts S512x3
  inb_S512x3_S512x3_0_0 : ∀ a, (![0, 0] : Fin 2 → Nat) a + S512x3.size a ≤ S512x3.size a
  h_S512x3 : 0 < S512x3.numel
  dot_S512x4096_S4096x3_S512x3_1_0_0_1_n_n_wf : DotDims.WF S512x4096 S4096x3 S512x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x3.size a ≤ S4096x3.size a
  hwx0_1 : ∀ i : grid0.Coords, EltTy.bits .bf16 = 32 ∨ (Rect.block (s := S4096x3) S4096x3.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x3.size a ≤ S16384x3.size a
  hwx0_2 : ∀ i : grid0.Coords, EltTy.bits .f32 = 32 ∨ (Rect.block (s := S16384x3) S512x3.size (cc0_transform_2 i) (hinb0_2 i)).WholeWords (EltTy.packing .f32)

variable [Facts₀]

def dot_S512x4096_S4096x3_S512x3_1_0_0_1_n_n : DotDims S512x4096 S4096x3 S512x3 where
  lhsContracting := [1]
  rhsContracting := [0]
  lhsNonContracting := [0]
  rhsNonContracting := [1]
  lhsBatch := []
  rhsBatch := []
  wf := dot_S512x4096_S4096x3_S512x3_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S4096x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S512x3.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S3x4096 : Shape := ⟨2, ![3, 4096]⟩
abbrev S_ : Shape := ⟨0, ![]⟩
abbrev S16384 : Shape := ⟨1, ![16384]⟩
abbrev S16384x1 : Shape := ⟨2, ![16384, 1]⟩
abbrev S3 : Shape := ⟨1, ![3]⟩
abbrev S3x1 : Shape := ⟨2, ![3, 1]⟩
abbrev S4096x3 : Shape := ⟨2, ![4096, 3]⟩
abbrev S16384x3 : Shape := ⟨2, ![16384, 3]⟩

abbrev nBuf : Space → Nat
  | .hbm => 18
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S3x4096, .f32⟩
  | .hbm, ⟨2, _⟩ => ⟨S16384x4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S16384x1, .f32⟩
  | .hbm, ⟨7, _⟩ => ⟨S16384x4096, .f32⟩
  | .hbm, ⟨8, _⟩ => ⟨S16384x4096, .f32⟩
  | .hbm, ⟨9, _⟩ => ⟨S3x4096, .f32⟩
  | .hbm, ⟨10, _⟩ => ⟨S_, .f32⟩
  | .hbm, ⟨11, _⟩ => ⟨S3, .f32⟩
  | .hbm, ⟨12, _⟩ => ⟨S3x1, .f32⟩
  | .hbm, ⟨13, _⟩ => ⟨S3x1, .f32⟩
  | .hbm, ⟨14, _⟩ => ⟨S3x4096, .f32⟩
  | .hbm, ⟨15, _⟩ => ⟨S3x4096, .f32⟩
  | .hbm, ⟨16, _⟩ => ⟨S4096x3, .f32⟩
  | .hbm, ⟨17, _⟩ => ⟨S16384x3, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call1_v0 : Ref sig .tc := ⟨.hbm, 9, rfl⟩
abbrev main_call1_cst : Ref sig .tc := ⟨.hbm, 10, rfl⟩
abbrev main_call1_v1 : Ref sig .tc := ⟨.hbm, 11, rfl⟩
abbrev main_call1_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]

class Facts₀ : Prop where
  reducesTo_S16384x4096_S16384_d1 : S16384x4096.ReducesTo [1] S16384
  h_S_ : 0 < S_.numel
  bcast_S16384_S16384x1_0 : S16384.BroadcastsInDim S16384x1 (![0] : Fin 1 → Fin S16384x1.rank)
  bcast_S16384x1_S16384x4096_0_1 : S16384x1.BroadcastsInDim S16384x4096 (![0, 1] : Fin 2 → Fin S16384x4096.rank)
  reducesTo_S3x4096_S3_d1 : S3x4096.ReducesTo [1] S3
  bcast_S3_S3x1_0 : S3.BroadcastsInDim S3x1 (![0] : Fin 1 → Fin S3x1.rank)
  bcast_S3x1_S3x4096_0_1 : S3x1.BroadcastsInDim S3x4096 (![0, 1] : Fin 2 → Fin S3x4096.rank)
  transposes_S3x4096_S4096x3_1_0 : S3x4096.Transposes [1, 0] S4096x3
  dot_S16384x4096_S4096x3_S16384x3_1_0_0_1_n_n_wf : DotDims.WF S16384x4096 S4096x3 S16384x3 [1] [0] [0] [1] [] []

variable [Facts₀]

def dot_S16384x4096_S4096x3_S16384x3_1_0_0_1_n_n : DotDims S16384x4096 S4096x3 S16384x3 where
  lhsContracting := [1]
  rhsContracting := [0]
  lhsNonContracting := [0]
  rhsNonContracting := [1]
  lhsBatch := []
  rhsBatch := []
  wf := dot_S16384x4096_S4096x3_S16384x3_1_0_0_1_n_n_wf

class Facts : Prop extends Facts₀ where

variable [Facts]
-- ==== Proof.CosineLaw.lean ====
/-
  Cosine similarity of the rows of a matrix against the columns of a support matrix, on the extended reals.

  For a row a and a column s the reference forms  Σₖ (aₖ / √q) · sₖ  with q the row's sum of squares, and the kernel
  forms  (Σₖ aₖ · sₖ) · rsqrt q.  For q > 0 the factor c = rsqrt q is a nonnegative FINITE extended real (0 when
  q = +∞, 1/√q when q is a positive real) and division by √q is multiplication by c, also at the infinities.
  Multiplication by such a c distributes over every sum of extended reals (it is order preserving and keeps the
  convention ⊤ + ⊥ = ⊥), so no finiteness of the aₖ or sₖ is needed: the two forms are one number.
  For q = 0 they differ (0/0 against 0 · ⊤), which is why the rows are required to be nonzero.
-/
import Idealize.ShloMosaic.PureOps.Ideal
import Idealize.ShloMosaic.Lib.ValueIdx

noncomputable section

open scoped BigOperators

namespace Cert.Cosine

open Idealize.ShloMosaic Idealize.ShloMosaic.ValueIdx

/-- A nonnegative finite factor moves inside a finite sum of extended reals, whatever the summands. -/
theorem sum_mul_of_nonneg {ι : Type} (S : Finset ι) (t : ι → EReal) {c : EReal} (h0 : 0 ≤ c) (ht : c ≠ ⊤) :
    (∑ k ∈ S, t k) * c = ∑ k ∈ S, t k * c := by
  classical
  refine Finset.induction_on S (by simp) fun a S ha ih => ?_
  rw [Finset.sum_insert ha, Finset.sum_insert ha, EReal.right_distrib_of_nonneg_of_ne_top h0 ht, ih]

/-- For a positive q the reciprocal root of q is nonnegative and finite, and dividing by the root of q is multiplying
    by it: at q = +∞ both are multiplication by 0, at a positive real q by 1/√q. -/
theorem rsqrt_scale {q : EReal} (h : 0 < q) :
    0 ≤ Ideal.rsqrt q ∧ Ideal.rsqrt q ≠ ⊤ ∧ ∀ x : EReal, Ideal.div x (Ideal.sqrt q) = x * Ideal.rsqrt q := by
  induction q using EReal.rec with
  | bot => exact absurd h (by simp)
  | top =>
    refine ⟨by simp, by simp, fun x => ?_⟩
    simp [Ideal.div]
  | coe r =>
    have hr : 0 < r := by exact_mod_cast h
    have hs : 0 < Real.sqrt r := Real.sqrt_pos.mpr hr
    have e1 : Ideal.rsqrt (r : EReal) = (((Real.sqrt r)⁻¹ : ℝ) : EReal) := by
      rw [Ideal.rsqrt_coe, if_neg (not_lt.mpr hr.le), if_neg hr.ne']
    have e2 : Ideal.sqrt (r : EReal) = ((Real.sqrt r : ℝ) : EReal) := by
      rw [Ideal.sqrt_coe, if_neg (not_lt.mpr hr.le)]
    refine ⟨?_, ?_, fun x => ?_⟩
    · rw [e1]; exact_mod_cast (inv_pos.mpr hs).le
    · rw [e1]; exact EReal.coe_ne_top _
    · rw [e1, e2, Ideal.div_coe hs.ne', one_div]

/-- The two forms of a normalised dot product agree when the sum of squares q is positive:
    Σₖ (aₖ / √q) · sₖ = (Σₖ aₖ · sₖ) · rsqrt q, for arbitrary extended reals aₖ, sₖ. -/
theorem sum_div_sqrt_mul {ι : Type} [Fintype ι] (a s : ι → EReal) {q : EReal} (h : 0 < q) :
    ∑ k, Ideal.div (a k) (Ideal.sqrt q) * s k = (∑ k, a k * s k) * Ideal.rsqrt q := by
  obtain ⟨h0, ht, hd⟩ := rsqrt_scale h
  rw [sum_mul_of_nonneg _ _ h0 ht]
  refine Finset.sum_congr rfl fun k _ => ?_
  rw [hd, mul_right_comm]

/-- The table of cosines: entry (p, j) is the dot product of row p of `x` with column j of the support matrix `s`,
    times the reciprocal root of row p's sum of squares. -/
def cosTable (x : (⟨2, ![16384, 4096]⟩ : Shape).Idx → EReal) (s : (⟨2, ![4096, 3]⟩ : Shape).Idx → EReal) :
    (⟨2, ![16384, 3]⟩ : Shape).Idx → EReal :=
  fun i => (∑ k : Fin 4096, x (ix2 (i 0) k) * s (ix2 k (i 1)))
    * Ideal.rsqrt (∑ k : Fin 4096, x (ix2 (i 0) k) * x (ix2 (i 0) k))

theorem cosTable_apply (x : (⟨2, ![16384, 4096]⟩ : Shape).Idx → EReal) (s : (⟨2, ![4096, 3]⟩ : Shape).Idx → EReal)
    (p : Fin 16384) (j : Fin 3) :
    cosTable x s (ix2 p j) = (∑ k : Fin 4096, x (ix2 p k) * s (ix2 k j))
      * Ideal.rsqrt (∑ k : Fin 4096, x (ix2 p k) * x (ix2 p k)) := rfl

end Cert.Cosine

end
-- ==== Proof.RowsPositive.lean ====
/-
  What the precondition says of the first argument's rows: its last conjunct is "every row's sum of squares is positive",
  an and-reduction over the 16384 rows of the comparison  0 < 0 + Σₖ x(p,k)·x(p,k).
-/
import proofs.«169860_j14826227106300_2_alg».proof.Pre_finite_inputs
import Idealize.ShloMosaic.Lib.ReduceAll
import Idealize.ShloMosaic.Lib.ValueIdx
import Idealize.ShloMosaic.Lib.Pipeline.Value
import Idealize.ShloMosaic.PureOps.Ideal.Laws

noncomputable section

open scoped BigOperators

namespace Cert.RowsPositive

open Idealize.ShloMosaic Idealize.ShloMosaic.ValueIdx Cert.Pre_finite_inputs

instance : Subsingleton S_.Idx := ⟨fun a b => funext fun d => d.elim0⟩

/-- Under the precondition every row of the first argument has a positive sum of squares. -/
theorem rows_pos [Cert.Pre_finite_inputs.Facts] (x0 : FVec Ideal S16384x4096 .f32) (x1 : FVec Ideal S3x4096 .f32)
    (h : Cert.Pre_finite_inputs.fn (F := Ideal) x0 x1 = fun _ => 1#1) (p : Fin 16384) :
    0 < ∑ k : Fin 4096, x0 (ix2 p k) * x0 (ix2 p k) := by
  have h0 := congrFun h ix0
  dsimp only [Cert.Pre_finite_inputs.fn] at h0
  have h13 := (IntOp.andi_eq_one.mp h0).2
  have hp := Host.reduce_andi_all _ _ _ _ _ h13 (ix1 p)
  have hx : Host.reduceAdd (mulf x0 x0) (constant S_ .f32 0x00000000#32 : FVec Ideal S_ .f32)
        Facts.reducesTo_S16384x4096_S16384_d1 Facts.h_S_ (ix1 p) = ∑ k : Fin 4096, x0 (ix2 p k) * x0 (ix2 p k) := by
    simp only [Host.reduceAdd, Ideal.hostReduceAdd_def]
    rw [Ideal.hostReduceAdd_single Facts.reducesTo_S16384x4096_S16384_d1 (by decide)]
    refine (congrArg (· + _) ?_).trans ((zero_add _).trans (Finset.sum_congr rfl fun k _ => ?_))
    · exact Ideal.ofBits_zero_f32
    · have e : (by decide : S16384x4096.Reduces [1] S16384).lift (ix1 p) k = ix2 p k :=
        funext fun a => Fin.ext (by match a with | ⟨0, _⟩ => rfl | ⟨1, _⟩ => rfl)
      exact (congrArg (mulf x0 x0) e).trans rfl
  have hz : broadcastInDim S16384 ![] Facts.bcast_S_S16384 (constant S_ .f32 0x00000000#32 : FVec Ideal S_ .f32) (ix1 p) = 0 :=
    (broadcastInDim_apply _ Facts.bcast_S_S16384 _ (ix1 p) ix0 (fun a => a.elim0)).trans Ideal.ofBits_zero_f32
  rw [cmpf_apply, Ideal.cmpf_def, hx, hz] at hp
  have hc : Ideal.cmp .ogt (∑ k : Fin 4096, x0 (ix2 p k) * x0 (ix2 p k)) 0 = 1#1 := hp
  by_contra hn
  have hf : Ideal.cmp .ogt (∑ k : Fin 4096, x0 (ix2 p k) * x0 (ix2 p k)) 0 = 0#1 := by
    show BitVec.ofBool (decide _) = 0#1
    rw [decide_eq_false hn]; rfl
  rw [hf] at hc
  exact absurd hc (by decide)

end Cert.RowsPositive

end
-- ==== Proof.RefTable.lean ====
/-
  The reference's result, entry by entry: row p of the first argument divided by the root of its sum of squares, dotted
  with column j of the support matrix (the second argument's rows, each divided by the root of its own sum of squares,
  transposed).  When row p's sum of squares is positive this is the table of cosines in the form
  (Σₖ x(p,k)·s(k,j)) · rsqrt(Σₖ x(p,k)²).
-/
import proofs.«169860_j14826227106300_2_alg».proof.Proof.Gen.ReferenceIdeal.Read
import proofs.«169860_j14826227106300_2_alg».proof.Proof.CosineLaw

noncomputable section

open scoped BigOperators

namespace Cert.ReferenceIdeal.RefValue

open Idealize.ShloMosaic Idealize.ShloMosaic.ValueIdx Cert.ReferenceIdeal Cert.ReferenceIdeal.Read

/-- The divisor the reference uses for every entry of row p: the root of 0 plus the row's sum of squares. -/
theorem rowNorm_apply (x0 : (⟨S16384x4096, .f32⟩ : BufTy).Contents (Elt Ideal)) (p : Fin 16384) (k : Fin 4096) :
    val_main_v1 (F := Ideal) x0 (ix2 p k) = Ideal.sqrt (∑ k' : Fin 4096, x0 (ix2 p k') * x0 (ix2 p k')) := by
  rw [val_main_v1_apply, val_main_v0_apply, val_main_call0_v2_apply, val_main_call0_v1_apply, val_main_call0_cst_apply]
  simp only [val_main_call0_v0_apply, Ideal.hostUnary_sqrt_def, Ideal.mulf_def, Ideal.ofBits_def, Ideal.ofBits_zero_f32, zero_add]
  refine congrArg Ideal.sqrt (Finset.sum_congr rfl fun k' _ => ?_)
  have e : idx_main_call0_v1 (idx_main_call0_v2 (idx_main_v1 (ix2 p k))) k' = ix2 p k' :=
    funext fun a => Fin.ext (by match a with | ⟨0, _⟩ => rfl | ⟨1, _⟩ => rfl)
  rw [e]

/-- The reference's result is the table of cosines over the support matrix it builds, when every row of the first
    argument has a positive sum of squares. -/
theorem ref_eq (x0 : (⟨S16384x4096, .f32⟩ : BufTy).Contents (Elt Ideal)) (x1 : (⟨S3x4096, .f32⟩ : BufTy).Contents (Elt Ideal))
    (hpos : ∀ p : Fin 16384, 0 < ∑ k : Fin 4096, x0 (ix2 p k) * x0 (ix2 p k)) :
    val_main_v7 (F := Ideal) x0 x1 = Cert.Cosine.cosTable x0 (val_main_v6 (F := Ideal) x1) := by
  funext i
  obtain ⟨p, j, rfl⟩ : ∃ (p : Fin 16384) (j : Fin 3), i = ix2 p j := ⟨i 0, i 1, eq_ix2 i⟩
  rw [val_main_v7_apply, Cert.Cosine.cosTable_apply, ← Cert.Cosine.sum_div_sqrt_mul _ _ (hpos p)]
  refine Finset.sum_congr rfl fun k _ => ?_
  have el : lidx_main_v7 (ix2 p j) k = ix2 p k :=
    funext fun a => Fin.ext (by match a with | ⟨0, _⟩ => rfl | ⟨1, _⟩ => rfl)
  have er : ridx_main_v7 (ix2 p j) k = ix2 k j :=
    funext fun a => Fin.ext (by match a with | ⟨0, _⟩ => rfl | ⟨1, _⟩ => rfl)
  rw [el, er, val_main_v2_apply, rowNorm_apply, Ideal.hostDivf_def]

end Cert.ReferenceIdeal.RefValue

end
-- ==== Proof.LibDenseRows.lean ====
/-
  General lemmas for kernels that push rows through dense layers, read at the exact (extended-real) instance.

  * `matmulT_zero_apply`: a matrix product of an [M, K] left operand with an [N, K] right operand, both contracted on
    their LAST axis, into a zero accumulator, is at (p, j) the plain sum over k of left (p, k) times right (j, k).
  * `rowSum_apply`: a sum of an [A, B] array along its last axis is at p the plain sum over k of the array at (p, k).
  * `shapeCast_a_a1_apply`: an [a] vector recast as an [a, 1] column reads, at (i, u), the vector at i.
  * `denseT_relu_apply`: a hidden layer as a kernel body spells it (product over last axes into a zero accumulator, bias
    row repeated down the rows, maximum with zero) is at (p, j) max (∑ₖ h (p, k) · w (j, k) + b j) 0.
  * `rowDot_bias_apply`: an output layer of width one spelt as multiply by the one weight row, sum along the row, add the
    one bias, is at (p, u) ∑ₖ h (p, k) · w (0, k) + b 0.
-/
import Idealize.ShloMosaic.Lib.ValueIdx
import Idealize.ShloMosaic.Lib.ValueLayout
import Idealize.ShloMosaic.PureOps.Ideal.Laws

noncomputable section

open scoped BigOperators

namespace Cert.DenseRows

open Idealize.ShloMosaic Idealize.ShloMosaic.ValueIdx

variable {M K N : ℕ}

/-! ## The operand indices of a product contracted on both last axes -/

/-- The left operand's row is the result's row. -/
theorem lhsT_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem lhsT_1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the result's column. -/
theorem rhsT_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem rhsT_1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- A product of an [M, K] array with an [N, K] array over their last axes, into a zero accumulator, at (p, j):
    the sum over k of left (p, k) times right (j, k). No order of summation is left in it: the sum is the
    extended reals' commutative one. -/
theorem matmulT_zero_apply {φ₁ φ₂ : FTy} (prec : Option ContractPrecision) (h : FVec Ideal ⟨2, ![M, K]⟩ φ₁) (w : FVec Ideal ⟨2, ![N, K]⟩ φ₂)
    (p : Fin M) (j : Fin N) :
    FloatOps.matmul (DotDims.transposedRhs M K N) prec h w (constant ⟨2, ![M, N]⟩ .f32 0x00000000#32) (ix2 p j)
      = ∑ k : Fin K, h (ix2 p k) * w (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p j) ((contrEquiv1 (DotDims.transposedRhs M K N) K rfl rfl).symm k) = ix2 p k :=
    funext fun a => Fin.ext (by
      match a with
      | ⟨0, _⟩ => exact lhsT_0 _ _
      | ⟨1, _⟩ => exact (lhsT_1 _ _).trans hk)
  have er : (DotDims.transposedRhs M K N).rhsIdx (ix2 p j) ((contrEquiv1 (DotDims.transposedRhs M K N) K rfl rfl).symm k) = ix2 j k :=
    funext fun a => Fin.ext (by
      match a with
      | ⟨0, _⟩ => exact rhsT_0 _ _
      | ⟨1, _⟩ => exact (rhsT_1 _ _).trans hk)
  rw [el, er]

/-! ## A sum along the last axis -/

/-- The sum of an [A, B] array along its last axis, at p, is the sum over k of the array at (p, k). -/
theorem rowSum_apply {A B : ℕ} {φ : FTy} (src : FVec Ideal ⟨2, ![A, B]⟩ φ) (acc : BitVec φ.bits)
    (h : (⟨2, ![A, B]⟩ : Shape).Reduces [1] ⟨1, ![A]⟩) (hφ : FKind.Formats φ) (hacc : acc = FKind.add.neutral φ hφ) (p : Fin A) :
    multiReduction .add [1] ⟨1, ![A]⟩ src acc h hφ hacc (ix1 p) = ∑ k : Fin B, src (ix2 p k) := by
  refine (Ideal.multiReduction_add_single src acc h hφ hacc (ix1 p)).trans ?_
  refine Finset.sum_congr rfl fun k _ => congrArg src (funext fun c => Fin.ext ?_)
  rw [h.lift_val]
  match c with
  | ⟨0, _⟩ => rfl
  | ⟨1, _⟩ => rfl

/-! ## A vector recast as a column -/

/-- An [a] vector recast as an [a, 1] column reads, at (i, u), the vector at i, whatever the unit coordinate u. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Whole layers at one entry -/

/-- A hidden layer as a kernel body spells it — the product of [M, K] activations with [J, K] weights over their last
    axes into a zero accumulator, plus the [J] bias recast as one row and repeated down the rows, then the maximum with
    the zero splat — is, at (p, j), max (∑ₖ h (p, k) · w (j, k) + b j) 0. -/
theorem denseT_relu_apply {J : ℕ} {φ₁ φ₂ : FTy} (prec : Option ContractPrecision) (h : FVec Ideal ⟨2, ![M, K]⟩ φ₁)
    (w : FVec Ideal ⟨2, ![J, K]⟩ φ₂) (b : FVec Ideal ⟨1, ![J]⟩ .f32) (hc : (⟨1, ![J]⟩ : Shape).ShapeCasts ⟨2, ![1, J]⟩)
    (hb : (⟨2, ![1, J]⟩ : Shape).Broadcasts ⟨2, ![M, J]⟩) (p : Fin M) (j : Fin J) :
    maximumf (addf (matmul (DotDims.transposedRhs M K J) prec h w (constant ⟨2, ![M, J]⟩ .f32 0x00000000#32))
        (broadcastTo ⟨2, ![M, J]⟩ (shapeCast ⟨2, ![1, J]⟩ b hc) hb))
      (broadcast ⟨2, ![M, J]⟩ (Scalar.ofBits (F := Ideal) .f32 0x00000000#32)) (ix2 p j)
      = max ((∑ k : Fin K, h (ix2 p k) * w (ix2 j k)) + b (ix1 j)) 0 :=
  congrArg₂ max (congrArg₂ (· + ·) (matmulT_zero_apply prec h w p j)
    ((broadcastTo_1b_ab_apply _ hb p j).trans (shapeCast_a_1a_apply b hc 0 j))) Ideal.ofBits_zero_f32

/-- An output layer of width one spelt on the vector unit — the [M, K] activations times the one [1, K] weight row repeated
    down the rows, summed along each row, recast as a column, plus the one bias repeated down the column — is, at
    (p, u), ∑ₖ h (p, k) · w (0, k) + b 0. -/
theorem rowDot_bias_apply (h : FVec Ideal ⟨2, ![M, K]⟩ .f32) (w : FVec Ideal ⟨2, ![1, K]⟩ .f32) (b : FVec Ideal ⟨1, ![1]⟩ .f32)
    (hw : (⟨2, ![1, K]⟩ : Shape).Broadcasts ⟨2, ![M, K]⟩) (hr : (⟨2, ![M, K]⟩ : Shape).Reduces [1] ⟨1, ![M]⟩)
    (hφ : FKind.Formats .f32) (hacc : (0x00000000#32 : BitVec FTy.f32.bits) = FKind.add.neutral .f32 hφ)
    (hs : (⟨1, ![M]⟩ : Shape).ShapeCasts ⟨2, ![M, 1]⟩) (hc : (⟨1, ![1]⟩ : Shape).ShapeCasts ⟨2, ![1, 1]⟩)
    (hb : (⟨2, ![1, 1]⟩ : Shape).Broadcasts ⟨2, ![M, 1]⟩) (p : Fin M) (u : Fin 1) :
    addf (shapeCast ⟨2, ![M, 1]⟩ (multiReduction .add [1] ⟨1, ![M]⟩ (mulf h (broadcastTo ⟨2, ![M, K]⟩ w hw)) 0x00000000#32 hr hφ hacc) hs)
        (broadcastTo ⟨2, ![M, 1]⟩ (shapeCast ⟨2, ![1, 1]⟩ b hc) hb) (ix2 p u)
      = (∑ k : Fin K, h (ix2 p k) * w (ix2 (0 : Fin 1) k)) + b (ix1 (0 : Fin 1)) :=
  congrArg₂ (· + ·)
    (((shapeCast_a_a1_apply _ hs p u).trans (rowSum_apply _ _ hr hφ hacc p)).trans
      (Finset.sum_congr rfl fun k _ => congrArg (h (ix2 p k) * ·) (broadcastTo_1b_ab_apply w hw p k)))
    (((broadcastTo_1b_ab_apply _ hb p u).trans (shapeCast_a_1a_apply b hc 0 u)).trans
      (congrArg (fun t : Fin 1 => b (ix1 t)) (Subsingleton.elim u 0)))

end Cert.DenseRows

end
-- ==== Proof.LibColumns.lean ====
/-
  General lemmas for kernels that keep a per-row number as an [a, 1] column.

  * `broadcastTo_a1_ab_apply`: an [a, 1] column repeated along the rows of an [a, b] array reads, at (p, c), the column at p.
  * `keepdimsSum_apply`: a sum of an [a, b] array along its last axis kept as an [a, 1] column reads, at (p, u), the plain
    sum over k of the array at (p, k).
-/
import Idealize.ShloMosaic.Lib.ValueIdx
import Idealize.ShloMosaic.Lib.ValueLayout
import Idealize.ShloMosaic.Lib.Pipeline.Value
import Idealize.ShloMosaic.PureOps.Ideal.Laws
import proofs.«169860_j14826227106300_2_alg».proof.Proof.LibDenseRows

noncomputable section

open scoped BigOperators

namespace Cert.Columns

open Idealize.ShloMosaic Idealize.ShloMosaic.ValueIdx

/-- An [a, 1] column broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an [a, b] array along its last axis, kept as an [a, 1] column: at (p, u) the sum over k of the array at (p, k). -/
theorem keepdimsSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (p : Fin a) (u : Fin 1) :
    shapeCast ⟨2, ![a, 1]⟩ (multiReduction .add [1] ⟨1, ![a]⟩ src acc h hφ hacc) hs (ix2 p u) = ∑ k : Fin b, src (ix2 p k) :=
  (Cert.DenseRows.shapeCast_a_a1_apply _ hs p u).trans (Cert.DenseRows.rowSum_apply src acc h hφ hacc p)

end Cert.Columns

end
-- ==== Proof.LibPlainLayers.lean ====
/-
  General lemmas for kernels built of plain matrix products, bias rows and row normalisation, read at the exact
  (extended-real) instance, one entry at a time.

  * `plainMM_zero_apply`: an [M, K] by [K, N] product into a zero accumulator is at (p, j) the plain sum over k of
    left (p, k) times right (k, j); `plainMM_of_eq` is the same for any record of dimension numbers equal to the plain one.
  * `dense_relu_apply`: product, plus a [1, N] bias row repeated down the rows, then the maximum with zero.
  * `dense_bias_apply`: product plus the repeated bias row.
  * `l2norm_apply`: each row times the reciprocal square root of the larger of its sum of squares and a floor.
-/
import Idealize.ShloMosaic.Lib.ValueIdx
import Idealize.ShloMosaic.Lib.ValueLayout
import Idealize.ShloMosaic.Lib.Pipeline.Value
import Idealize.ShloMosaic.PureOps.Ideal.Laws
import proofs.«169860_j14826227106300_2_alg».proof.Proof.LibDenseRows
import proofs.«169860_j14826227106300_2_alg».proof.Proof.LibColumns

noncomputable section

open scoped BigOperators

namespace Cert.PlainLayers

open Idealize.ShloMosaic Idealize.ShloMosaic.ValueIdx

variable {M K N : ℕ}

/-! ## The operand indices of a plain product -/

theorem plainL_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plainL_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plainR_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plainR_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain product into a zero accumulator at (p, j): the sum over k of left (p, k) times right (k, j). -/
theorem plainMM_zero_apply {φ₁ φ₂ : FTy} (prec : Option ContractPrecision) (h : FVec Ideal ⟨2, ![M, K]⟩ φ₁) (w : FVec Ideal ⟨2, ![K, N]⟩ φ₂)
    (p : Fin M) (j : Fin N) :
    FloatOps.matmul (DotDims.plain M K N) prec h w (constant ⟨2, ![M, N]⟩ .f32 0x00000000#32) (ix2 p j)
      = ∑ k : Fin K, h (ix2 p k) * w (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plainL_0 _ _
      | ⟨1, _⟩ => exact (plainL_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plainR_0 _ _).trans hk
      | ⟨1, _⟩ => exact plainR_1 _ _)
  rw [el, er]

/-- The same for any record of dimension numbers that is the plain one. -/
theorem plainMM_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (p : Fin M) (j : Fin N) :
    FloatOps.matmul D prec h w (constant ⟨2, ![M, N]⟩ .f32 0x00000000#32) (ix2 p j) = ∑ k : Fin K, h (ix2 p k) * w (ix2 k j) := by
  subst hD; exact plainMM_zero_apply prec h w p j

/-- A plain product into any accumulator at (p, j): the accumulator there plus the sum. -/
theorem plainMM_acc_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (acc : FVec Ideal ⟨2, ![M, N]⟩ .f32)
    (p : Fin M) (j : Fin N) :
    FloatOps.matmul D prec h w acc (ix2 p j) = acc (ix2 p j) + ∑ k : Fin K, h (ix2 p k) * w (ix2 k j) := by
  subst hD
  rw [Ideal.matmul_apply, ← plainMM_zero_apply prec h w p j, Ideal.matmul_constant_zero_apply]

/-- Product plus a [1, N] bias row repeated down the rows, at (p, j). -/
theorem dense_bias_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    addf (matmul D prec h w (constant ⟨2, ![M, N]⟩ .f32 0x00000000#32)) (broadcastTo ⟨2, ![M, N]⟩ (shapeCast ⟨2, ![1, N]⟩ b hc) hb) (ix2 p j)
      = (∑ k : Fin K, h (ix2 p k) * w (ix2 k j)) + b (ix2 (0 : Fin 1) j) :=
  congrArg₂ (· + ·) (plainMM_of_eq D hD prec h w p j)
    ((broadcastTo_1b_ab_apply _ hb p j).trans (congrFun (shapeCast_self b hc) _))

/-- Product, bias row, maximum with zero, at (p, j). -/
theorem dense_relu_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    maximumf (addf (matmul D prec h w (constant ⟨2, ![M, N]⟩ .f32 0x00000000#32)) (broadcastTo ⟨2, ![M, N]⟩ (shapeCast ⟨2, ![1, N]⟩ b hc) hb))
        (broadcast ⟨2, ![M, N]⟩ (Scalar.ofBits (F := Ideal) .f32 0x00000000#32)) (ix2 p j)
      = max ((∑ k : Fin K, h (ix2 p k) * w (ix2 k j)) + b (ix2 (0 : Fin 1) j)) 0 :=
  congrArg₂ max (dense_bias_apply D hD prec h w b hc hb p j) Ideal.ofBits_zero_f32

/-- Each row of an [A, B] array times the reciprocal square root of the larger of the row's sum of squares and a floor,
    at (p, q). -/
theorem l2norm_apply {A B : ℕ} (P : FVec Ideal ⟨2, ![A, B]⟩ .f32) (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (p : Fin A) (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = P (ix2 p q) * FloatOps.rsqrt (F := Ideal) (φ := .f32) (max (∑ k : Fin B, P (ix2 p k) * P (ix2 p k)) (Ideal.ofBits .f32 fl)) := by
  refine congrArg (P (ix2 p q) * ·) ?_
  refine (Cert.Columns.broadcastTo_a1_ab_apply _ hbc p q).trans ?_
  exact congrArg (fun t => FloatOps.rsqrt (F := Ideal) (φ := .f32) (max t (Ideal.ofBits .f32 fl)))
    (Cert.Columns.keepdimsSum_apply (mulf P P) acc hr hφ hacc hs p 0)

/-- The same, the array's entries of row p given by a formula `R`. -/
theorem l2norm_apply_of {A B : ℕ} (P : FVec Ideal ⟨2, ![A, B]⟩ .f32) (R : Fin B → EReal) (p : Fin A) (hP : ∀ e, P (ix2 p e) = R e)
    (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = R q * FloatOps.rsqrt (F := Ideal) (φ := .f32) (max (∑ k : Fin B, R k * R k) (Ideal.ofBits .f32 fl)) := by
  rw [l2norm_apply P acc hr hφ hacc hs fl hbc p q]
  simp only [hP]

/-- A sum of an [A, 1, B] array along its leading axis, at (u, e): the sum over s of the array at (s, u, e). -/
theorem leadSum_apply {A B : ℕ} {φ : FTy} (src : FVec Ideal ⟨3, ![A, 1, B]⟩ φ) (acc : BitVec φ.bits)
    (h : (⟨3, ![A, 1, B]⟩ : Shape).Reduces [0] ⟨2, ![1, B]⟩) (hφ : FKind.Formats φ) (hacc : acc = FKind.add.neutral φ hφ)
    (u : Fin 1) (e : Fin B) :
    multiReduction .add [0] ⟨2, ![1, B]⟩ src acc h hφ hacc (ix2 u e) = ∑ s : Fin A, src (ix3 s u e) := by
  refine (Ideal.multiReduction_add_single src acc h hφ hacc (ix2 u e)).trans ?_
  refine Finset.sum_congr rfl fun k _ => congrArg src (funext fun c => Fin.ext ?_)
  rw [h.lift_val]
  match c with
  | ⟨0, _⟩ => rfl
  | ⟨1, _⟩ => rfl
  | ⟨2, _⟩ => rfl

end Cert.PlainLayers

end
-- ==== Proof.KernelTable.lean ====
/-
  The kernel's result array, entry by entry.  The grid has 32 points; point t reads rows 512·t … 512·t + 511 of the first
  argument (all 4096 columns) and the whole [4096, 3] support matrix, and writes rows 512·t … 512·t + 511 of the result.
  For a row p of the block and a column j it stores
      (Σₖ x(p,k) · s(k,j)) · rsqrt (Σₖ x(p,k)·x(p,k)):
  the product into a zero accumulator is the plain sum, the change of float format is the identity, and the row's sum of
  squares, kept as a column and repeated along the three columns, is the same number for every j.
  The 32 blocks of 512 rows tile the 16384 rows, so the result array is the table of cosines of the first argument
  against the support matrix as the region finds it.
-/
import proofs.«169860_j14826227106300_2_alg».proof.Proof.Gen.KernelIdeal.Value
import proofs.«169860_j14826227106300_2_alg».proof.Proof.CosineLaw
import proofs.«169860_j14826227106300_2_alg».proof.Proof.LibPlainLayers
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

open scoped BigOperators

namespace Cert.KernelIdeal.Table

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- What one grid point stores at row p, column j of its block, from the rows block x0 and the support matrix x1. -/
theorem pay_apply (x0 : Vec Ideal S512x4096 .f32) (x1 : Vec Ideal S4096x3 .bf16) (p : Fin 512) (j : Fin 3) :
    k0_pay1 x0 x1 (ix2 p j) = (∑ k : Fin 4096, x0 (ix2 p k) * x1 (ix2 k j))
      * Ideal.rsqrt (∑ k : Fin 4096, x0 (ix2 p k) * x0 (ix2 p k)) := by
  unfold k0_pay1
  dsimp only
  rw [mulf_apply]
  refine congrArg₂ (· * ·) ?_ ?_
  · refine (Cert.PlainLayers.plainMM_of_eq _ rfl none _ _ p j).trans (Finset.sum_congr rfl fun k _ => ?_)
    rw [shapeCast_self]
    rfl
  · refine (Cert.Columns.broadcastTo_a1_ab_apply _ _ p j).trans ?_
    exact congrArg Ideal.rsqrt ((Cert.Columns.keepdimsSum_apply (mulf x0 x0) _ _ _ _ _ p 0).trans
      (Finset.sum_congr rfl fun k _ => rfl))

/-- One entry of a block is an entry of the table of cosines of any arrays the loaded blocks are pieces of: row p of the rows
    block is row P of `X`, and the support block is `S`. -/
theorem block_apply (x0 : Vec Ideal S512x4096 .f32) (x1 : Vec Ideal S4096x3 .bf16)
    (X : S16384x4096.Idx → EReal) (S : S4096x3.Idx → EReal) (p : Fin 512) (j : Fin 3) (P : Fin 16384)
    (hx0 : ∀ k : Fin 4096, x0 (ix2 p k) = X (ix2 P k))
    (hx1 : ∀ k : Fin 4096, x1 (ix2 k j) = S (ix2 k j)) :
    k0_pay1 x0 x1 (ix2 p j) = Cert.Cosine.cosTable X S (ix2 P j) := by
  rw [pay_apply, Cert.Cosine.cosTable_apply]
  simp only [hx0, hx1]

/-- The printed index maps over the 32 grid points: the rows window moves with the output window along the rows and stays
    at column block 0; the support window stays at block (0, 0); the output window stays at column block 0. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 :=
  (by decide +kernel : ∀ t : Fin grid0.N, _)

/-- Every block of 512 rows is some point's output block. -/
theorem idx_onto : ∀ q : Fin 32, ∃ t : Fin cfg0.N, win0_2.index t = ![q.val, 0] :=
  (by decide +kernel : ∀ q : Fin 32, ∃ t : Fin grid0.N, win0_2.index t = ![q.val, 0])

/-- What point t writes back is block t of the table of cosines of the first argument against the support matrix, both
    as the region finds them. -/
theorem flushed_eq (c : Dev nD) (t : Fin cfg0.N) :
    (dats m 0 c).flushed 2 t = ((cfg0.win 2).blk t).view.read (Elt Ideal)
      (Cert.Cosine.cosTable (V m c main_arg0) (V m c main_v4)) := by
  rw [flushed2]
  unfold out0_2
  rw [View.canon_unit_zero hz]
  simp only [View.ld_unit_zero (S := S512x4096) hz, View.ld_unit_zero (S := S4096x3) hz]
  obtain ⟨e0, e1, e2, e3, e4⟩ := idx_facts t
  funext y
  have hy : y = ix2 (y 0) (y 1) := eq_ix2 y
  have hE : ((cfg0.win 2).blk t).view.emb y = ix2 ((((cfg0.win 2).blk t).view.emb y) 0) (y 1) :=
    funext fun a => Fin.ext (by
      match a with
      | ⟨0, _⟩ => rfl
      | ⟨1, _⟩ => show win0_2.index t (1 : Fin 2) * 3 + 1 * (y 1).val = (y 1).val; rw [e4]; omega)
  refine (congrArg (k0_pay1 (iblk m c 0 t) (iblk m c 1 t)) hy).trans ?_
  refine (block_apply (iblk m c 0 t) (iblk m c 1 t) (V m c main_arg0) (V m c main_v4) (y 0) (y 1)
    ((((cfg0.win 2).blk t).view.emb y) 0) (fun k => ?_) (fun k => ?_)).trans
    (congrArg (Cert.Cosine.cosTable (V m c main_arg0) (V m c main_v4)) hE.symm)
  · show V m c main_arg0 (((cfg0.win 0).blk t).view.emb (ix2 (y 0) k)) = V m c main_arg0 (ix2 ((((cfg0.win 2).blk t).view.emb y) 0) k)
    refine congrArg _ (funext fun a => Fin.ext ?_)
    match a with
    | ⟨0, _⟩ => show win0_0.index t (0 : Fin 2) * 512 + 1 * (y 0).val = win0_2.index t (0 : Fin 2) * 512 + 1 * (y 0).val; rw [e0]
    | ⟨1, _⟩ => show win0_0.index t (1 : Fin 2) * 4096 + 1 * k.val = k.val; rw [e1]; omega
  · show V m c main_v4 (((cfg0.win 1).blk t).view.emb (ix2 k (y 1))) = V m c main_v4 (ix2 k (y 1))
    refine congrArg _ (funext fun a => Fin.ext ?_)
    match a with
    | ⟨0, _⟩ => show win0_1.index t (0 : Fin 2) * 4096 + 1 * k.val = k.val; rw [e2]; omega
    | ⟨1, _⟩ => show win0_1.index t (1 : Fin 2) * 3 + 1 * (y 1).val = (y 1).val; rw [e3]; omega

/-- An index of the result array is in point t's block iff each coordinate is in the block's range on its axis. -/
theorem mem_blk (t : Fin cfg0.N) (i : S16384x3.Idx) :
    i ∈ ((cfg0.win 2).blk t).view.set ↔ ∀ a : Fin 2, win0_2.index t a * S512x3.size a ≤ (i a).val
      ∧ (i a).val < win0_2.index t a * S512x3.size a + S512x3.size a := by
  show i ∈ ((View.whole main_v5).slice (win0_2.rect t)).set ↔ _
  rw [View.set_slice_whole, Rect.mem_set_unit]
  exact Iff.rfl

/-- Row r of the result lies in the block of point r / 512. -/
theorem cover (i : S16384x3.Idx) : ∃ t : Fin cfg0.N, (cfg0.win 2).flush t = true ∧ i ∈ ((cfg0.win 2).blk t).view.set := by
  have hi0 : (i 0).val < 16384 := (i 0).isLt
  have hi1 : (i 1).val < 3 := (i 1).isLt
  obtain ⟨t, ht⟩ := idx_onto ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 3 ≤ (i 1).val ∧ (i 1).val < win0_2.index t (1 : Fin 2) * 3 + 3; omega

/-- The result array after the run. -/
theorem final (c : Dev nD) :
    (dats m 0 c).arrAt 2 cfg0.N = Cert.Cosine.cosTable (V m c main_arg0) (V m c main_v4) :=
  (dats m 0 c).arrAt_eq_of_cover 2 _ (fun t _ => flushed_eq m c t) cover

/-- The support matrix as the region finds it: the second argument's rows, each entry divided by the root of its row's
    sum of squares, transposed (and its float format changed, which is the identity on extended reals). -/
theorem support_eq (c : Dev nD) :
    (V m c main_v4 : S4096x3.Idx → EReal)
      = truncf .bf16 (transpose S4096x3 [1, 0] (Host.divf (F := Ideal) (m ((c : Thread nD τ).loc main_arg1))
          (broadcastInDim S3x4096 ![0, 1] Facts₀.bcast_S3x1_S3x4096_0_1 (Host.sqrt (F := Ideal) (broadcastInDim S3x1 ![0] Facts₀.bcast_S3_S3x1_0
            (Host.reduceAdd (F := Ideal) (mulf (m ((c : Thread nD τ).loc main_arg1)) (m ((c : Thread nD τ).loc main_arg1)))
              (constant (F := Ideal) S_ .f32 0x00000000#32) Facts₀.reducesTo_S3x4096_S3_d1 Facts₀.h_S_)))))
          Facts₀.transposes_S3x4096_S4096x3_1_0) Facts₀.bitsLt_bf16_f32 := by
  dsimp only [Gen.V]
  simp only [Gen.hostOps0, Gen.hostOps0_1, List.flatten_cons, List.flatten_nil, List.append_nil, List.cons_append, List.nil_append]
  after_results
  rfl

/-- The run, read: the result array is the table of cosines of the first argument against the support matrix the host
    operations built, and the arguments are unchanged. -/
theorem run : θ_run defs (onTc (τ := τ) (main (F := Ideal))) ⟨m, fun _ => 0, ρ⟩ fun r => ∀ c : Dev nD,
      r.2.mem ((c : Thread nD τ).loc main_v5)
        = Cert.Cosine.cosTable (m ((c : Thread nD τ).loc main_arg0)) (V m c main_v4)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final m c).trans (by rw [V_main_arg0])), (h c).2⟩)
    (run_blocks m ρ)

end Cert.KernelIdeal.Table

end
-- ==== Proof.lean ====
/-
  Cosine similarity of 16384 query rows against 3 support rows, kernel against reference, on the extended reals.

  Both programs first turn the second argument x2 : [3, 4096] into the support matrix s : [4096, 3],
  s(k, j) = x2(j, k) / √(Σₖ' x2(j, k')²), by the same host operations (the kernel's extra change of float format is the
  identity here).  The reference then divides every row of x1 : [16384, 4096] by the root of its sum of squares and
  multiplies by s:        ref(p, j) = Σₖ (x1(p,k) / √q_p) · s(k,j),     q_p = Σₖ x1(p,k)².
  The kernel, 512 rows per grid point over 32 points, multiplies the unnormalised rows by s and scales afterwards:
                          ker(p, j) = (Σₖ x1(p,k) · s(k,j)) · rsqrt q_p.
  When q_p > 0 the factor rsqrt q_p is a nonnegative finite extended real, division by √q_p is multiplication by it, and
  such a factor moves across any sum of extended reals, so the two are equal whatever s holds (Proof/CosineLaw.lean).
  At a zero row the two differ (0/0 against 0 · ∞), so the precondition asks every row of x1 to have a positive sum of
  squares — where the reference's own division is defined.

  The kernel's result array as that table: Proof/KernelTable.lean, over the generated blockwise value leg.
  The reference's result as that table: Proof/RefTable.lean, over the generated run and its read-at-an-index lemmas.
  The rows' positivity out of the precondition: Proof/RowsPositive.lean.
  The three frames are the generated ones; no operation was rewritten by the idealization, so `preserves` is `True`.
-/
import proofs.«169860_j14826227106300_2_alg».proof.Defs
import proofs.«169860_j14826227106300_2_alg».proof.Proof.Gen.Kernel
import proofs.«169860_j14826227106300_2_alg».proof.Proof.Gen.Kernel.Skeleton
import proofs.«169860_j14826227106300_2_alg».proof.Proof.Gen.Kernel.Launch
import proofs.«169860_j14826227106300_2_alg».proof.Proof.Gen.Kernel.Points
import proofs.«169860_j14826227106300_2_alg».proof.Proof.Gen.Kernel.Frame
import proofs.«169860_j14826227106300_2_alg».proof.Proof.Gen.KernelIdeal
import proofs.«169860_j14826227106300_2_alg».proof.Proof.Gen.KernelIdeal.Skeleton
import proofs.«169860_j14826227106300_2_alg».proof.Proof.Gen.KernelIdeal.Launch
import proofs.«169860_j14826227106300_2_alg».proof.Proof.Gen.KernelIdeal.Points
import proofs.«169860_j14826227106300_2_alg».proof.Proof.Gen.KernelIdeal.Frame
import proofs.«169860_j14826227106300_2_alg».proof.Proof.Gen.ReferenceIdeal
import proofs.«169860_j14826227106300_2_alg».proof.Proof.Gen.Pre_finite_inputs
import proofs.«169860_j14826227106300_2_alg».proof.Proof.Gen.KernelIdeal.Value
import proofs.«169860_j14826227106300_2_alg».proof.Proof.Gen.ReferenceIdeal.Run
import proofs.«169860_j14826227106300_2_alg».proof.Proof.Gen.ReferenceIdeal.Read
import proofs.«169860_j14826227106300_2_alg».proof.Proof.CosineLaw
import proofs.«169860_j14826227106300_2_alg».proof.Proof.RowsPositive
import proofs.«169860_j14826227106300_2_alg».proof.Proof.RefTable
import proofs.«169860_j14826227106300_2_alg».proof.Proof.KernelTable
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The support matrix the kernel's host operations leave for the region is the one the reference builds: the same
    operations of the second argument, up to a change of float format. -/
theorem support_agree (m : (ℓ : Loc Cert.KernelIdeal.nD Cert.KernelIdeal.τ Cert.KernelIdeal.sig) → Buf (Elt Ideal) ℓ)
    (c : Dev Cert.KernelIdeal.nD) :
    (Cert.KernelIdeal.Gen.V m c Cert.KernelIdeal.main_v4 : Cert.KernelIdeal.S4096x3.Idx → EReal)
      = Cert.ReferenceIdeal.Read.val_main_v6 (F := Ideal)
          (m ((c.tc : Thread Cert.KernelIdeal.nD Cert.KernelIdeal.τ).loc Cert.KernelIdeal.main_arg1)) := by
  rw [Cert.KernelIdeal.Table.support_eq]
  funext i
  rw [ValueIdx.truncf_apply]
  unfold Cert.ReferenceIdeal.Read.val_main_v6 Cert.ReferenceIdeal.Read.val_main_v5 Cert.ReferenceIdeal.Read.val_main_v4
    Cert.ReferenceIdeal.Read.val_main_v3 Cert.ReferenceIdeal.Read.val_main_call1_v2 Cert.ReferenceIdeal.Read.val_main_call1_v1
    Cert.ReferenceIdeal.Read.val_main_call1_v0 Cert.ReferenceIdeal.Read.val_main_call1_cst
  rfl

/-- Both result arrays are the table of cosines of the first argument against that support matrix. -/
theorem algebraic : Cert.algebraic_KernelIdeal_ReferenceIdeal := by
  intro m ρ m' ρ' hpre hagree
  refine ⟨fun c => Cert.Cosine.cosTable
      (m ((c.tc : Thread Cert.KernelIdeal.nD Cert.KernelIdeal.τ).loc Cert.KernelIdeal.main_arg0))
      (Cert.KernelIdeal.Gen.V m c Cert.KernelIdeal.main_v4), Cert.KernelIdeal.Table.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  refine (Cert.ReferenceIdeal.Read.val_main_v7_eq _ _).trans ?_
  refine (Cert.ReferenceIdeal.RefValue.ref_eq _ _ fun p => Cert.RowsPositive.rows_pos _ _ (hpre c) p).trans ?_
  exact congrArg (Cert.Cosine.cosTable _) (support_agree m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
